-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S200000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S200000x128 : Shape := ⟨2, ![200000, 128]⟩
abbrev S1600000 : Shape := ⟨1, ![1600000]⟩
abbrev S128x128 : Shape := ⟨2, ![128, 128]⟩
abbrev S128 : Shape := ⟨1, ![128]⟩
abbrev S10000x128 : Shape := ⟨2, ![10000, 128]⟩
abbrev S_ : Shape := ⟨0, ![]⟩
abbrev S200000 : Shape := ⟨1, ![200000]⟩
abbrev S200000x1 : Shape := ⟨2, ![200000, 1]⟩
abbrev S1x128 : Shape := ⟨2, ![1, 128]⟩

abbrev nBuf : Space → Nat
  | .hbm => 174
  | .vmem => 5
  | .smem => 0
  | _ => 0

abbrev hbmTy0_0 (i : Nat) : BufTy := match i % 128 with
  | 0 => ⟨S200000x128, .f32⟩
  | 1 => ⟨S1600000, .i32⟩
  | 2 => ⟨S1600000, .i32⟩
  | 3 => ⟨S1600000, .f32⟩
  | 4 => ⟨S128x128, .f32⟩
  | 5 => ⟨S128, .f32⟩
  | 6 => ⟨S128x128, .f32⟩
  | 7 => ⟨S128x128, .bf16⟩
  | 8 => ⟨S200000x128, .f32⟩
  | 9 => ⟨S_, .f32⟩
  | 10 => ⟨S200000x128, .f32⟩
  | 11 => ⟨S200000, .f32⟩
  | 12 => ⟨S200000x1, .f32⟩
  | 13 => ⟨S200000, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x128, .f32⟩
  | 23 => ⟨S200000x128, .f32⟩
  | 24 => ⟨S200000x128, .f32⟩
  | 25 => ⟨S200000, .i32⟩
  | 26 => ⟨S_, .f32⟩
  | 27 => ⟨S200000x128, .f32⟩
  | 28 => ⟨S200000x1, .i32⟩
  | 29 => ⟨S200000x128, .f32⟩
  | 30 => ⟨S200000x128, .f32⟩
  | 31 => ⟨S200000, .f32⟩
  | 32 => ⟨S200000x1, .f32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x128, .f32⟩
  | 43 => ⟨S200000x128, .f32⟩
  | 44 => ⟨S200000x128, .f32⟩
  | 45 => ⟨S200000, .i32⟩
  | 46 => ⟨S_, .f32⟩
  | 47 => ⟨S200000x128, .f32⟩
  | 48 => ⟨S200000x1, .i32⟩
  | 49 => ⟨S200000x128, .f32⟩
  | 50 => ⟨S200000x128, .f32⟩
  | 51 => ⟨S200000, .f32⟩
  | 52 => ⟨S200000x1, .f32⟩
  | 53 => ⟨S200000, .i32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x128, .f32⟩
  | 63 => ⟨S200000x128, .f32⟩
  | 64 => ⟨S200000x128, .f32⟩
  | 65 => ⟨S200000, .i32⟩
  | 66 => ⟨S_, .f32⟩
  | 67 => ⟨S200000x128, .f32⟩
  | 68 => ⟨S200000x1, .i32⟩
  | 69 => ⟨S200000x128, .f32⟩
  | 70 => ⟨S200000x128, .f32⟩
  | 71 => ⟨S200000, .f32⟩
  | 72 => ⟨S200000x1, .f32⟩
  | 73 => ⟨S200000, .i32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S200000x128, .f32⟩
  | 83 => ⟨S200000x128, .f32⟩
  | 84 => ⟨S200000x128, .f32⟩
  | 85 => ⟨S200000, .i32⟩
  | 86 => ⟨S_, .f32⟩
  | 87 => ⟨S200000x128, .f32⟩
  | 88 => ⟨S200000x1, .i32⟩
  | 89 => ⟨S200000x128, .f32⟩
  | 90 => ⟨S200000x128, .f32⟩
  | 91 => ⟨S200000, .f32⟩
  | 92 => ⟨S200000x1, .f32⟩
  | 93 => ⟨S200000, .i32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x128, .f32⟩
  | 103 => ⟨S200000x128, .f32⟩
  | 104 => ⟨S200000x128, .f32⟩
  | 105 => ⟨S200000, .i32⟩
  | 106 => ⟨S_, .f32⟩
  | 107 => ⟨S200000x128, .f32⟩
  | 108 => ⟨S200000x1, .i32⟩
  | 109 => ⟨S200000x128, .f32⟩
  | 110 => ⟨S200000x128, .f32⟩
  | 111 => ⟨S200000, .f32⟩
  | 112 => ⟨S200000x1, .f32⟩
  | 113 => ⟨S200000, .i32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x128, .f32⟩
  | 123 => ⟨S200000x128, .f32⟩
  | 124 => ⟨S200000x128, .f32⟩
  | 125 => ⟨S200000, .i32⟩
  | 126 => ⟨S_, .f32⟩
  | 127 => ⟨S200000x128, .f32⟩
  | _ => ⟨S200000x128, .f32⟩

abbrev hbmTy0_1 (i : Nat) : BufTy := match i % 128 with
  | 0 => ⟨S200000x1, .i32⟩
  | 1 => ⟨S200000x128, .f32⟩
  | 2 => ⟨S200000x128, .f32⟩
  | 3 => ⟨S200000, .f32⟩
  | 4 => ⟨S200000x1, .f32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x128, .f32⟩
  | 15 => ⟨S200000x128, .f32⟩
  | 16 => ⟨S200000x128, .f32⟩
  | 17 => ⟨S200000, .i32⟩
  | 18 => ⟨S_, .f32⟩
  | 19 => ⟨S200000x128, .f32⟩
  | 20 => ⟨S200000x1, .i32⟩
  | 21 => ⟨S200000x128, .f32⟩
  | 22 => ⟨S200000x128, .f32⟩
  | 23 => ⟨S200000, .f32⟩
  | 24 => ⟨S200000x1, .f32⟩
  | 25 => ⟨S200000, .i32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x128, .f32⟩
  | 35 => ⟨S200000x128, .f32⟩
  | 36 => ⟨S200000x128, .f32⟩
  | 37 => ⟨S200000, .i32⟩
  | 38 => ⟨S_, .f32⟩
  | 39 => ⟨S200000x128, .f32⟩
  | 40 => ⟨S200000x1, .i32⟩
  | 41 => ⟨S200000x128, .f32⟩
  | 42 => ⟨S200000x128, .f32⟩
  | 43 => ⟨S1x128, .f32⟩
  | 44 => ⟨S200000x128, .f32⟩
  | 45 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_8 : Ref sig .tc := ⟨.hbm, 74, rfl⟩
abbrev main_v58 : Ref sig .tc := ⟨.hbm, 75, rfl⟩
abbrev main_v59 : Ref sig .tc := ⟨.hbm, 76, rfl⟩
abbrev main_c_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c_11 : Ref sig .tc := ⟨.hbm, 94, rfl⟩
abbrev main_v75 : Ref sig .tc := ⟨.hbm, 95, rfl⟩
abbrev main_v76 : Ref sig .tc := ⟨.hbm, 96, rfl⟩
abbrev main_c_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_c_14 : Ref sig .tc := ⟨.hbm, 114, rfl⟩
abbrev main_v92 : Ref sig .tc := ⟨.hbm, 115, rfl⟩
abbrev main_v93 : Ref sig .tc := ⟨.hbm, 116, rfl⟩
abbrev main_c_15 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_16 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_c_17 : Ref sig .tc := ⟨.hbm, 134, rfl⟩
abbrev main_v109 : Ref sig .tc := ⟨.hbm, 135, rfl⟩
abbrev main_v110 : Ref sig .tc := ⟨.hbm, 136, rfl⟩
abbrev main_c_18 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_19 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_c_20 : Ref sig .tc := ⟨.hbm, 154, rfl⟩
abbrev main_v126 : Ref sig .tc := ⟨.hbm, 155, rfl⟩
abbrev main_v127 : Ref sig .tc := ⟨.hbm, 156, rfl⟩
abbrev main_c_21 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_22 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x128_S128x128_1_0 : S128x128.Transposes [1, 0] S128x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S200000x128 : S_.BroadcastsInDim S200000x128 (![] : Fin 0 → Fin S200000x128.rank)
  slices_S1600000_S200000_0 : S1600000.Slices ![0] S200000
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x128_0_1 : S200000x1.BroadcastsInDim S200000x128 (![0, 1] : Fin 2 → Fin S200000x128.rank)
  slices_S1600000_S200000_200000 : S1600000.Slices ![200000] S200000
  slices_S1600000_S200000_400000 : S1600000.Slices ![400000] S200000
  slices_S1600000_S200000_600000 : S1600000.Slices ![600000] S200000
  slices_S1600000_S200000_800000 : S1600000.Slices ![800000] S200000
  slices_S1600000_S200000_1000000 : S1600000.Slices ![1000000] S200000
  slices_S1600000_S200000_1200000 : S1600000.Slices ![1200000] S200000
  slices_S1600000_S200000_1400000 : S1600000.Slices ![1400000] S200000
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  dot_S10000x128_S128x128_S10000x128_1_0_0_1_n_n_wf : DotDims.WF S10000x128 S128x128 S10000x128 [1] [0] [0] [1] [] []
  gather_S200000x128_S200000x1_S200000x128_1_0_n_n_0_1_1128_wf : GatherDims.WF S200000x128 S200000x1 S200000x128 [1] [0] [] [0] [] 1 ![1, 128]
  scatter_S200000x128_S200000x1_S200000x128_1_0_0_1_wf : ScatterDims.WF S200000x128 S200000x1 S200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S200000x128.size a
  hwx0_2 : ∀ i : grid0.Coords, EltTy.bits .f32 = 32 ∨ (Rect.block (s := S200000x128) S10000x128.size (cc0_transform_2 i) (hinb0_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x128 : Shape := ⟨2, ![200000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S200000x128, .f32⟩
  | .hbm, ⟨20, _⟩ => ⟨S1600000x1, .i32⟩
  | .hbm, ⟨21, _⟩ => ⟨S200000x128, .f32⟩
  | .hbm, ⟨22, _⟩ => ⟨S128x128, .f32⟩
  | .hbm, ⟨23, _⟩ => ⟨S200000x128, .f32⟩
  | .hbm, ⟨24, _⟩ => ⟨S1x128, .f32⟩
  | .hbm, ⟨25, _⟩ => ⟨S200000x128, .f32⟩
  | .hbm, ⟨26, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S200000x128 : S_.BroadcastsInDim S200000x128 (![] : Fin 0 → Fin S200000x128.rank)
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x128_S1600000x1_S1600000x128_1_0_n_n_0_1_1128_wf : GatherDims.WF S200000x128 S1600000x1 S1600000x128 [1] [0] [] [0] [] 1 ![1, 128]
  scatter_S200000x128_S1600000x1_S1600000x128_1_0_0_1_wf : ScatterDims.WF S200000x128 S1600000x1 S1600000x128 [1] [0] [0] 1
  dot_S200000x128_S128x128_S200000x128_1_0_0_1_n_n_wf : DotDims.WF S200000x128 S128x128 S200000x128 [1] [0] [0] [1] [] []

variable [Facts₀]

def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.AroundK.lean ====
/-
  The frame of `Kernel`: @main is two host operations (the transpose of the weights and their change of
  format), one region, and a long stretch of host operations that gather, scale and scatter-add rows of the
  region's result. The region walks twenty blocks of 10000 rows; at each point the body loads the block of the
  first operand and the whole weight matrix, multiplies them on the matrix unit into a zero accumulator and stores
  the product over the whole output block. So after the body the output window's buffer is the canon of that one
  store, every input window's buffer is its block, and the run of @main ends with every array of the pipeline at
  what the write-backs leave and every other buffer as the later host operations leave it. The later operations
  write only their own result buffers, so every argument ends as launched.
-/
import proofs.«122976_j31482110280358_2_alg».proof.Proof.Gen.Kernel.Launch
import proofs.«122976_j31482110280358_2_alg».proof.Proof.Gen.Kernel.Skeleton
import proofs.«122976_j31482110280358_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch memory after the two host operations before it. -/
abbrev V0 (c : Dev nD) : Valuation τ sig (Elt F) := StableHlo.after (List.flatten [main_part0_ops0]) (fun b => m (c, b))
/-- The same read at a TensorCore reference. -/
abbrev V (c : Dev nD) (b : Ref sig .tc) : Buf (Elt F) ((c : Thread nD τ).loc b) := V0 m c (Proc.devRef .tc b)

theorem main_part0_ops0_fresh : (main_part0_ops0 : List (HloOp τ sig (Elt F))).Forall fun op => op.fresh = ∅ := by
  simp only [List.Forall]; repeat' constructor

/-- No operation of this stretch writes an array of the pipeline: each writes only its own result buffer. -/
theorem main_part0_ops1_keeps : (main_part0_ops1 : List (HloOp τ sig (Elt F))).Forall fun op => ∀ w : Fin 3, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- Nor allocates anything. -/
theorem main_part0_ops1_fresh : (main_part0_ops1 : List (HloOp τ sig (Elt F))).Forall fun op => op.fresh = ∅ := by
  simp only [List.Forall]; repeat' constructor
/-- No operation of this stretch writes an array of the pipeline: each writes only its own result buffer. -/
theorem main_part1_ops0_keeps : (main_part1_ops0 : List (HloOp τ sig (Elt F))).Forall fun op => ∀ w : Fin 3, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- Nor allocates anything. -/
theorem main_part1_ops0_fresh : (main_part1_ops0 : List (HloOp τ sig (Elt F))).Forall fun op => op.fresh = ∅ := by
  simp only [List.Forall]; repeat' constructor
/-- No operation of this stretch writes an array of the pipeline: each writes only its own result buffer. -/
theorem main_part2_ops0_keeps : (main_part2_ops0 : List (HloOp τ sig (Elt F))).Forall fun op => ∀ w : Fin 3, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- Nor allocates anything. -/
theorem main_part2_ops0_fresh : (main_part2_ops0 : List (HloOp τ sig (Elt F))).Forall fun op => op.fresh = ∅ := by
  simp only [List.Forall]; repeat' constructor

set_option maxRecDepth 400000 in
/-- @main reduces to the region continued by the later host operations, taken in three consecutive stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq main_part0_ops1, StableHlo.seq main_part1_ops0, StableHlo.seq main_part2_ops0]) :=
  Pipeline.hmain_around cfgs 0 defs₀ 𝒱₀ m main [main_part0_ops0] [main_part0_ops1, main_part1_ops0, main_part2_ops0] (by simp only [List.Forall]; exact main_part0_ops0_sub)
    (by simp only [List.Forall]; exact main_part0_ops0_fresh) main_chain_windows

/-- The later operations touch only the pipeline's arrays and the buffers that bypass the region. -/
theorem sfx_sub : ∀ ops ∈ ([main_part0_ops1, main_part1_ops0, main_part2_ops0] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp main_part0_ops1_sub) op hop)
  · exact Pipeline.sub_ucRefs op ((List.forall_iff_forall_mem.mp main_part1_ops0_sub) op hop)
  · exact Pipeline.sub_ucRefs op ((List.forall_iff_forall_mem.mp main_part2_ops0_sub) op hop)
/-- They allocate nothing. -/
theorem sfx_fresh : ∀ ops ∈ ([main_part0_ops1, main_part1_ops0, main_part2_ops0] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp main_part0_ops1_fresh) op hop
  · exact (List.forall_iff_forall_mem.mp main_part1_ops0_fresh) op hop
  · exact (List.forall_iff_forall_mem.mp main_part2_ops0_fresh) op hop
/-- And write no array of the pipeline. -/
theorem sfx_keeps : ∀ ops ∈ ([main_part0_ops1, main_part1_ops0, main_part2_ops0] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp main_part0_ops1_keeps) op hop
  · exact (List.forall_iff_forall_mem.mp main_part1_ops0_keeps) op hop
  · exact (List.forall_iff_forall_mem.mp main_part2_ops0_keeps) op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg1 = m ((c : Thread nD τ).loc main_arg1) := by
  unfold Pipeline.afterTail₀
  rw [StableHlo.after_of_forall_not_mem (b := Proc.devRef .tc main_arg1) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg2 = m ((c : Thread nD τ).loc main_arg2) := by
  unfold Pipeline.afterTail₀
  rw [StableHlo.after_of_forall_not_mem (b := Proc.devRef .tc main_arg2) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg3 = m ((c : Thread nD τ).loc main_arg3) := by
  unfold Pipeline.afterTail₀
  rw [StableHlo.after_of_forall_not_mem (b := Proc.devRef .tc main_arg3) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg4 = m ((c : Thread nD τ).loc main_arg4) := by
  unfold Pipeline.afterTail₀
  rw [StableHlo.after_of_forall_not_mem (b := Proc.devRef .tc main_arg4) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg5 = m ((c : Thread nD τ).loc main_arg5) := by
  unfold Pipeline.afterTail₀
  rw [StableHlo.after_of_forall_not_mem (b := Proc.devRef .tc main_arg5) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first operand's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the whole matrix at every point, although it is fetched at the first only. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the
    argument arrays — the staged first argument by the input window's array being kept, the others by the post's
    second clause and the later operations writing none of them — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [main_part0_ops1, main_part1_ops0, main_part2_ops0]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## The body's accesses -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-! ## What the body leaves in the output window's buffer -/

/-- The output window's staging buffer after the body: its one store, of the product of the two loaded blocks,
    over the whole buffer. -/
def out0_2 (x0 : Vec F S10000x128 .f32) (x1 : Vec F S128x128 .bf16) : Vec F S10000x128 .f32 :=
  View.canon [⟨r0_0, k0_pay1 (View.ld x0 r0_0) (View.ld x1 r0_1)⟩]

/-- The one store covers the buffer. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The body on whole staging memrefs, the inputs' at read contents and the output's at anything, runs to the
    continuation holding the inputs' as they were and the output's at the stored product. -/
theorem sound_kernel (c : Dev nD) (E : Set ℕ) (i : grid0.Coords) (arg1 : Memref sig .tc .vmem S10000x128 .f32) (harg1 : arg1.IsWhole) (arg2 : Memref sig .tc .vmem S128x128 .bf16) (harg2 : arg2.IsWhole) (arg3 : Memref sig .tc .vmem S10000x128 .f32) (harg3 : arg3.IsWhole)
    (x0 : Vec F S10000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at a point each input's buffer at its block and the output's
    at the stored product of the two blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 400000 in
set_option backward.isDefEq.respectTransparency.types false in
/-- From any memory with zero counters every weakly fair execution of @main terminates, and every final state has
    every array of the pipeline at what the write-backs leave and every other unscoped buffer as the later host
    operations leave it. -/
theorem run_main : θ_run defs (onTc (τ := τ) (main (F := F))) (s₀ m ρ) (Pipeline.FramePost cfgs (dats m) 0 (Pipeline.afterTail₀ cfgs (dats m) 0 (V0 m) [main_part0_ops1, main_part1_ops0, main_part2_ops0])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [main_part0_ops1, main_part1_ops0, main_part2_ops0]) (hsub := sfx_sub) (hfresh := sfx_fresh) (hkeep := sfx_keeps)
    (hmain := hmain m Variants.none) (hA := A_eq m) (hΦ := fun _ _ => rfl)

/-- The frame: @main runs to the end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Around

end
-- ==== Proof.AroundKI.lean ====
/-
  The frame of `KernelIdeal`: @main is two host operations (the transpose of the weights and their change of
  format), one region, and a long stretch of host operations that gather, scale and scatter-add rows of the
  region's result. The region walks twenty blocks of 10000 rows; at each point the body loads the block of the
  first operand and the whole weight matrix, multiplies them on the matrix unit into a zero accumulator and stores
  the product over the whole output block. So after the body the output window's buffer is the canon of that one
  store, every input window's buffer is its block, and the run of @main ends with every array of the pipeline at
  what the write-backs leave and every other buffer as the later host operations leave it. The later operations
  write only their own result buffers, so every argument ends as launched.
-/
import proofs.«122976_j31482110280358_2_alg».proof.Proof.Gen.KernelIdeal.Launch
import proofs.«122976_j31482110280358_2_alg».proof.Proof.Gen.KernelIdeal.Skeleton
import proofs.«122976_j31482110280358_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch memory after the two host operations before it. -/
abbrev V0 (c : Dev nD) : Valuation τ sig (Elt F) := StableHlo.after (List.flatten [main_part0_ops0]) (fun b => m (c, b))
/-- The same read at a TensorCore reference. -/
abbrev V (c : Dev nD) (b : Ref sig .tc) : Buf (Elt F) ((c : Thread nD τ).loc b) := V0 m c (Proc.devRef .tc b)

theorem main_part0_ops0_fresh : (main_part0_ops0 : List (HloOp τ sig (Elt F))).Forall fun op => op.fresh = ∅ := by
  simp only [List.Forall]; repeat' constructor

/-- No operation of this stretch writes an array of the pipeline: each writes only its own result buffer. -/
theorem main_part0_ops1_keeps : (main_part0_ops1 : List (HloOp τ sig (Elt F))).Forall fun op => ∀ w : Fin 3, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- Nor allocates anything. -/
theorem main_part0_ops1_fresh : (main_part0_ops1 : List (HloOp τ sig (Elt F))).Forall fun op => op.fresh = ∅ := by
  simp only [List.Forall]; repeat' constructor
/-- No operation of this stretch writes an array of the pipeline: each writes only its own result buffer. -/
theorem main_part1_ops0_keeps : (main_part1_ops0 : List (HloOp τ sig (Elt F))).Forall fun op => ∀ w : Fin 3, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- Nor allocates anything. -/
theorem main_part1_ops0_fresh : (main_part1_ops0 : List (HloOp τ sig (Elt F))).Forall fun op => op.fresh = ∅ := by
  simp only [List.Forall]; repeat' constructor
/-- No operation of this stretch writes an array of the pipeline: each writes only its own result buffer. -/
theorem main_part2_ops0_keeps : (main_part2_ops0 : List (HloOp τ sig (Elt F))).Forall fun op => ∀ w : Fin 3, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- Nor allocates anything. -/
theorem main_part2_ops0_fresh : (main_part2_ops0 : List (HloOp τ sig (Elt F))).Forall fun op => op.fresh = ∅ := by
  simp only [List.Forall]; repeat' constructor

set_option maxRecDepth 400000 in
/-- @main reduces to the region continued by the later host operations, taken in three consecutive stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq main_part0_ops1, StableHlo.seq main_part1_ops0, StableHlo.seq main_part2_ops0]) :=
  Pipeline.hmain_around cfgs 0 defs₀ 𝒱₀ m main [main_part0_ops0] [main_part0_ops1, main_part1_ops0, main_part2_ops0] (by simp only [List.Forall]; exact main_part0_ops0_sub)
    (by simp only [List.Forall]; exact main_part0_ops0_fresh) main_chain_windows

/-- The later operations touch only the pipeline's arrays and the buffers that bypass the region. -/
theorem sfx_sub : ∀ ops ∈ ([main_part0_ops1, main_part1_ops0, main_part2_ops0] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp main_part0_ops1_sub) op hop)
  · exact Pipeline.sub_ucRefs op ((List.forall_iff_forall_mem.mp main_part1_ops0_sub) op hop)
  · exact Pipeline.sub_ucRefs op ((List.forall_iff_forall_mem.mp main_part2_ops0_sub) op hop)
/-- They allocate nothing. -/
theorem sfx_fresh : ∀ ops ∈ ([main_part0_ops1, main_part1_ops0, main_part2_ops0] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp main_part0_ops1_fresh) op hop
  · exact (List.forall_iff_forall_mem.mp main_part1_ops0_fresh) op hop
  · exact (List.forall_iff_forall_mem.mp main_part2_ops0_fresh) op hop
/-- And write no array of the pipeline. -/
theorem sfx_keeps : ∀ ops ∈ ([main_part0_ops1, main_part1_ops0, main_part2_ops0] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp main_part0_ops1_keeps) op hop
  · exact (List.forall_iff_forall_mem.mp main_part1_ops0_keeps) op hop
  · exact (List.forall_iff_forall_mem.mp main_part2_ops0_keeps) op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [main_part0_ops0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg1 = m ((c : Thread nD τ).loc main_arg1) := by
  unfold Pipeline.afterTail₀
  rw [StableHlo.after_of_forall_not_mem (b := Proc.devRef .tc main_arg1) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg2 = m ((c : Thread nD τ).loc main_arg2) := by
  unfold Pipeline.afterTail₀
  rw [StableHlo.after_of_forall_not_mem (b := Proc.devRef .tc main_arg2) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg3 = m ((c : Thread nD τ).loc main_arg3) := by
  unfold Pipeline.afterTail₀
  rw [StableHlo.after_of_forall_not_mem (b := Proc.devRef .tc main_arg3) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg4 = m ((c : Thread nD τ).loc main_arg4) := by
  unfold Pipeline.afterTail₀
  rw [StableHlo.after_of_forall_not_mem (b := Proc.devRef .tc main_arg4) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [main_part0_ops1, main_part1_ops0, main_part2_ops0] c main_arg5 = m ((c : Thread nD τ).loc main_arg5) := by
  unfold Pipeline.afterTail₀
  rw [StableHlo.after_of_forall_not_mem (b := Proc.devRef .tc main_arg5) _ _ (List.forall_iff_forall_mem.mp (by
      simp only [main_part0_ops1, main_part1_ops0, main_part2_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first operand's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the whole matrix at every point, although it is fetched at the first only. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the
    argument arrays — the staged first argument by the input window's array being kept, the others by the post's
    second clause and the later operations writing none of them — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [main_part0_ops1, main_part1_ops0, main_part2_ops0]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## The body's accesses -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-! ## What the body leaves in the output window's buffer -/

/-- The output window's staging buffer after the body: its one store, of the product of the two loaded blocks,
    over the whole buffer. -/
def out0_2 (x0 : Vec F S10000x128 .f32) (x1 : Vec F S128x128 .bf16) : Vec F S10000x128 .f32 :=
  View.canon [⟨r0_0, k0_pay1 (View.ld x0 r0_0) (View.ld x1 r0_1)⟩]

/-- The one store covers the buffer. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The body on whole staging memrefs, the inputs' at read contents and the output's at anything, runs to the
    continuation holding the inputs' as they were and the output's at the stored product. -/
theorem sound_kernel (c : Dev nD) (E : Set ℕ) (i : grid0.Coords) (arg1 : Memref sig .tc .vmem S10000x128 .f32) (harg1 : arg1.IsWhole) (arg2 : Memref sig .tc .vmem S128x128 .bf16) (harg2 : arg2.IsWhole) (arg3 : Memref sig .tc .vmem S10000x128 .f32) (harg3 : arg3.IsWhole)
    (x0 : Vec F S10000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at a point each input's buffer at its block and the output's
    at the stored product of the two blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 400000 in
set_option backward.isDefEq.respectTransparency.types false in
/-- From any memory with zero counters every weakly fair execution of @main terminates, and every final state has
    every array of the pipeline at what the write-backs leave and every other unscoped buffer as the later host
    operations leave it. -/
theorem run_main : θ_run defs (onTc (τ := τ) (main (F := F))) (s₀ m ρ) (Pipeline.FramePost cfgs (dats m) 0 (Pipeline.afterTail₀ cfgs (dats m) 0 (V0 m) [main_part0_ops1, main_part1_ops0, main_part2_ops0])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [main_part0_ops1, main_part1_ops0, main_part2_ops0]) (hsub := sfx_sub) (hfresh := sfx_fresh) (hkeep := sfx_keeps)
    (hmain := hmain m Variants.none) (hA := A_eq m) (hΦ := fun _ _ => rfl)

/-- The frame: @main runs to the end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Around

end
-- ==== Proof.Product.lean ====
/-
  What the region leaves in its result array, at the ideal values. At grid point t the body multiplies rows
  10000·t … 10000·t + 9999 of the first operand by the whole 128 × 128 second operand (the change of float
  format is the identity on the extended reals, the accumulator is zero), and the block is written back over the
  same rows of the result. The twenty blocks tile the 200000 rows, so the result array ends as the product of the
  two operand arrays: entry (r, o) is the sum over k of the first operand at (r, k) times the second at (k, o).
-/
import proofs.«122976_j31482110280358_2_alg».proof.Proof.AroundKI
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Cert.KernelIdeal.Around
open Idealize.ShloMosaic Idealize.ShloMosaic.TcCoe Idealize.ShloMosaic.ValueIdx
open Idealize.SL Idealize.SL.Sem
open Idealize.ShloMosaic.Pipeline (Dat)

/-- The product of a 200000 × 128 array by a 128 × 128 array, entry by entry. -/
def Y (a0 : S200000x128.Idx → EReal) (a1 : S128x128.Idx → EReal) : S200000x128.Idx → EReal :=
  fun i => ∑ k : Fin 128, a0 (ix2 (⟨(i 0).val, idx2_lt0 i⟩ : Fin 200000) k) * a1 (ix2 k (⟨(i 1).val, idx2_lt1 i⟩ : Fin 128))

theorem Y_ix2 (a0 : S200000x128.Idx → EReal) (a1 : S128x128.Idx → EReal) (r : Fin 200000) (o : Fin 128) :
    Y a0 a1 (ix2 r o) = ∑ k : Fin 128, a0 (ix2 r k) * a1 (ix2 k o) := rfl

local notation "dotK" => dot_S10000x128_S128x128_S10000x128_1_0_0_1_n_n

/-- The matrix product's operand indices at output index (p, q) and contraction index k are (p, k) and (k, q). -/
theorem lhs_0 (i : S10000x128.Idx) (q : (dot_S10000x128_S128x128_S10000x128_1_0_0_1_n_n).contr.Idx) :
    ((dot_S10000x128_S128x128_S10000x128_1_0_0_1_n_n).lhsIdx i q 0).val = (i 0).val := by
  unfold DotDims.lhsIdx
  rw [dif_neg (show ¬(0 : Fin S10000x128.rank) ∈ (dot_S10000x128_S128x128_S10000x128_1_0_0_1_n_n).lhsBatch by decide), dif_pos (show (0 : Fin S10000x128.rank) ∈ (dot_S10000x128_S128x128_S10000x128_1_0_0_1_n_n).lhsNonContracting by decide)]
  rfl
theorem lhs_1 (i : S10000x128.Idx) (q : (dot_S10000x128_S128x128_S10000x128_1_0_0_1_n_n).contr.Idx) :
    ((dot_S10000x128_S128x128_S10000x128_1_0_0_1_n_n).lhsIdx i q 1).val = (q ⟨0, by decide⟩).val :=
  (dot_S10000x128_S128x128_S10000x128_1_0_0_1_n_n).lhsIdx_val_of_single rfl i q
theorem rhs_0 (i : S10000x128.Idx) (q : (dot_S10000x128_S128x128_S10000x128_1_0_0_1_n_n).contr.Idx) :
    ((dot_S10000x128_S128x128_S10000x128_1_0_0_1_n_n).rhsIdx i q 0).val = (q ⟨0, by decide⟩).val :=
  (dot_S10000x128_S128x128_S10000x128_1_0_0_1_n_n).rhsIdx_val_of_single rfl i q
theorem rhs_1 (i : S10000x128.Idx) (q : (dot_S10000x128_S128x128_S10000x128_1_0_0_1_n_n).contr.Idx) :
    ((dot_S10000x128_S128x128_S10000x128_1_0_0_1_n_n).rhsIdx i q 1).val = (i 1).val := by
  unfold DotDims.rhsIdx
  rw [dif_neg (show ¬(1 : Fin S128x128.rank) ∈ (dot_S10000x128_S128x128_S10000x128_1_0_0_1_n_n).rhsBatch by decide), dif_pos (show (1 : Fin S128x128.rank) ∈ (dot_S10000x128_S128x128_S10000x128_1_0_0_1_n_n).rhsNonContracting by decide)]
  rfl

/-- The body's payload at an index of the block: the row of the first block times the column of the second. -/
theorem pay_apply (x0 : FVec Ideal S10000x128 .f32) (x1 : FVec Ideal S128x128 .bf16) (p : Fin 10000) (q : Fin 128) :
    k0_pay1 (F := Ideal) x0 x1 (ix2 p q) = ∑ k : Fin 128, x0 (ix2 p k) * x1 (ix2 k q) := by
  unfold k0_pay1
  show FloatOps.matmul (F := Ideal) dot_S10000x128_S128x128_S10000x128_1_0_0_1_n_n none (truncf .bf16 x0 Facts₀.bitsLt_bf16_f32) (shapeCast S128x128 x1 Facts₀.shapeCasts_S128x128_S128x128) (constant S10000x128 .f32 0x00000000#32) (ix2 p q) = _
  rw [shapeCast_self]
  refine (Ideal.matmul_constant_zero_apply _ none _ _ _).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : (dot_S10000x128_S128x128_S10000x128_1_0_0_1_n_n).lhsIdx (ix2 p q) ((ValueIdx.contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : (dot_S10000x128_S128x128_S10000x128_1_0_0_1_n_n).rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the first operand's and the result's block is block t of the rows, the
    second operand's is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two operand arrays as the region finds them. -/
theorem flushed2_eq (c : Dev nD) (t : Fin cfg0.N) :
    (dats (F := Ideal) m 0 c).flushed 2 t = ((cfg0.win 2).blk t).view.read (Elt Ideal) (Y (V m c main_arg0) (V m c main_v1)) := by
  show (cfg0.win 2).cut (grid0.coords t) ((dats (F := Ideal) m 0 c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  have ht : t.val < 20 := lt_of_lt_of_eq t.isLt N_0
  funext j
  obtain ⟨p, q, rfl⟩ : ∃ (p : Fin 10000) (q : Fin 128), j = ix2 p q := ⟨j 0, j 1, eq_ix2 j⟩
  refine (pay_apply _ _ p q).trans ?_
  show _ = Y (V m c main_arg0) (V m c main_v1) (((cfg0.win 2).blk t).view.emb (ix2 p q))
  have hemb : ((cfg0.win 2).blk t).view.emb (ix2 p q) = ix2 (⟨t.val * 10000 + p.val, by omega⟩ : Fin 200000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [hemb, Y_ix2]
  refine Finset.sum_congr rfl fun k _ => ?_
  have h0 : iblk m c 0 t (ix2 p k) = V m c main_arg0 (ix2 (⟨t.val * 10000 + p.val, by omega⟩ : Fin 200000) k) := by
    show V m c main_arg0 (((cfg0.win 0).blk t).view.emb (ix2 p k)) = _
    congr 1
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : iblk m c 1 t (ix2 k q) = V m c main_v1 (ix2 k q) := by
    show V m c main_v1 (((cfg0.win 1).blk t).view.emb (ix2 k q)) = _
    congr 1
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the result is in point t's block iff its row lies in block t of the rows. -/
theorem mem_blk2 (t : Fin cfg0.N) (i : S200000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v2).slice (win0_2.rect t)).set ↔ _
  rw [View.set_slice_whole, Rect.mem_set_unit]
  exact Iff.rfl

/-- Every index of the result is in the block of the point its row's block names. -/
theorem cover2 (i : S200000x128.Idx) : ∃ t : Fin cfg0.N, (cfg0.win 2).flush t = true ∧ i ∈ ((cfg0.win 2).blk t).view.set := by
  have hi0 : (i 0).val < 200000 := idx2_lt0 i
  have hi1 : (i 1).val < 128 := idx2_lt1 i
  have hN : cfg0.N = 20 := N_0
  refine ⟨⟨(i 0).val / 10000, by rw [hN]; omega⟩, flush0_2 _, ?_⟩
  rw [mem_blk2]
  obtain ⟨e0, e1, e2, e3, e4, e5⟩ := idx_facts ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e5]; omega

/-- The result array after the region: the product of the two operand arrays as the region finds them. -/
theorem final2 (c : Dev nD) : (dats (F := Ideal) m 0 c).arrAt 2 cfg0.N = Y (V m c main_arg0) (V m c main_v1) :=
  (dats (F := Ideal) m 0 c).arrAt_eq_of_cover 2 _ (fun t _ => flushed2_eq m c t) cover2

end Cert.KernelIdeal.Product

end
-- ==== Proof.Tail.lean ====
/-
  The host operations after the region, read back. They cut the 1600000 edges into eight consecutive chunks of
  200000. For one chunk: the column indices are made non-negative (an index below zero is moved up by the number
  of rows), the rows of the region's result they name are gathered, each is scaled by the edge's value, and the
  scaled rows are scatter-added into a zero array at the edge's row index. The eight chunk arrays are added one
  after the other onto a zero array, and the bias row is added to every row of the sum.
-/
import proofs.«122976_j31482110280358_2_alg».proof.Proof.AroundKI
import Idealize.ShloMosaic.Lib.StableHlo.Run

set_option maxRecDepth 400000

noncomputable section

namespace Cert.KernelIdeal.Tail

open Cert.KernelIdeal Cert.KernelIdeal.Gen Cert.KernelIdeal.Around
open Idealize.ShloMosaic Idealize.ShloMosaic.TcCoe Idealize.ShloMosaic.StableHlo
open Idealize.SL Idealize.SL.Sem
open Idealize.ShloMosaic.Pipeline (Dat)

variable {F : FTy → Type} [FloatOps F]

/-- One chunk of edges, starting at `off`: the gathered rows of `y`, scaled and scatter-added into a zero array. -/
def chunkAgg (off : Fin 1 → Nat) (h : S1600000.Slices off S200000) (y : FVec F S200000x128 .f32)
    (rows cols : IVec S1600000 32) (vals : FVec F S1600000 .f32) : FVec F S200000x128 .f32 :=
  Host.scatterAdd scatter_S200000x128_S200000x1_S200000x128_1_0_0_1
    (broadcastInDim S200000x128 ![] Facts₀.bcast_S_S200000x128 (constant S_ .f32 0x00000000#32))
    (broadcastInDim S200000x1 ![0] Facts₀.bcast_S200000_S200000x1_0 (extractStridedSlice S200000 off rows h))
    (mulf
      (broadcastInDim S200000x128 ![0, 1] Facts₀.bcast_S200000x1_S200000x128_0_1
        (broadcastInDim S200000x1 ![0] Facts₀.bcast_S200000_S200000x1_0 (extractStridedSlice S200000 off vals h)))
      (Host.gather gather_S200000x128_S200000x1_S200000x128_1_0_n_n_0_1_1128 y
        (broadcastInDim S200000x1 ![0] Facts₀.bcast_S200000_S200000x1_0
          (select
            (cmpi CmpIPredicate.slt (extractStridedSlice S200000 off cols h) (broadcastInDim S200000 ![] Facts₀.bcast_S_S200000 (constantI S_ 32 0#32)))
            (addi (extractStridedSlice S200000 off cols h) (broadcastInDim S200000 ![] Facts₀.bcast_S_S200000 (constantI S_ 32 200000#32)))
            (extractStridedSlice S200000 off cols h)))))

/-- The program's result from the region's result array `y` and the arguments: the eight chunks summed onto zero,
    plus the bias row. -/
def kernelOut (y : FVec F S200000x128 .f32) (rows cols : IVec S1600000 32) (vals : FVec F S1600000 .f32)
    (b : FVec F S128 .f32) : FVec F S200000x128 .f32 :=
  addf
    (addf (addf (addf (addf (addf (addf (addf (addf (broadcastInDim S200000x128 ![] Facts₀.bcast_S_S200000x128 (constant S_ .f32 0x00000000#32))
      (chunkAgg ![0] Facts₀.slices_S1600000_S200000_0 y rows cols vals))
      (chunkAgg ![200000] Facts₀.slices_S1600000_S200000_200000 y rows cols vals))
      (chunkAgg ![400000] Facts₀.slices_S1600000_S200000_400000 y rows cols vals))
      (chunkAgg ![600000] Facts₀.slices_S1600000_S200000_600000 y rows cols vals))
      (chunkAgg ![800000] Facts₀.slices_S1600000_S200000_800000 y rows cols vals))
      (chunkAgg ![1000000] Facts₀.slices_S1600000_S200000_1000000 y rows cols vals))
      (chunkAgg ![1200000] Facts₀.slices_S1600000_S200000_1200000 y rows cols vals))
      (chunkAgg ![1400000] Facts₀.slices_S1600000_S200000_1400000 y rows cols vals))
    (broadcastInDim S200000x128 ![0, 1] Facts₀.bcast_S1x128_S200000x128_0_1 (broadcastInDim S1x128 ![1] Facts₀.bcast_S128_S1x128_1 b))

variable (m : (ℓ : Loc nD τ sig) → Buf (Elt F) ℓ)

/-- What the later operations find in the region's result array: what the write-backs left. -/
theorem found_v2 (c : Dev nD) :
    Pipeline.withArrays (cfgs 0).spec c (V0 m c) (fun w => (dats m 0 c).arrAt w (cfgs 0).N) (Proc.devRef .tc main_v2)
      = (dats m 0 c).arrAt 2 cfg0.N :=
  Pipeline.withArrays_arr spec0 launch0.win.arr_inj c _ _ 2
/-- And in argument 1: its launch contents. -/
theorem found_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans (V_main_arg1 m c)
/-- And in argument 2: its launch contents. -/
theorem found_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)
/-- And in argument 3: its launch contents. -/
theorem found_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)
/-- And in argument 5: its launch contents. -/
theorem found_arg5 (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans (V_main_arg5 m c)

set_option maxHeartbeats 8000000 in
/-- The result buffer after the later operations is `kernelOut` of what the region left and the launch contents. -/
theorem tail_out (c : Dev nD) :
    Pipeline.afterTail₀ cfgs (dats m) 0 (V0 m) [main_part0_ops1, main_part1_ops0, main_part2_ops0] c main_v142
      = kernelOut ((dats m 0 c).arrAt 2 cfg0.N) (m ((c : Thread nD τ).loc main_arg1)) (m ((c : Thread nD τ).loc main_arg2))
          (m ((c : Thread nD τ).loc main_arg3)) (m ((c : Thread nD τ).loc main_arg5)) := by
  unfold Pipeline.afterTail₀
  simp only [main_part0_ops1, main_part1_ops0, main_part2_ops0, List.flatten_cons, List.flatten_nil, List.append_nil, List.cons_append, List.nil_append]
  after_results_simp
  rw [found_v2 m c, found_arg1 m c, found_arg2 m c, found_arg3 m c, found_arg5 m c]
  rfl

end Cert.KernelIdeal.Tail

end
-- ==== Proof.KernelRun.lean ====
/-
  The idealized kernel program's run, with its result named. The second operand of the region is the weight matrix
  transposed (its change of float format is the identity at the ideal values), so the region leaves the product of
  the first argument by the transposed weights, and the result buffer ends as the eight chunk aggregations of that
  product plus the bias; every argument ends as launched.
-/
import proofs.«122976_j31482110280358_2_alg».proof.Proof.Product
import proofs.«122976_j31482110280358_2_alg».proof.Proof.Tail

set_option maxRecDepth 400000

noncomputable section

namespace Cert.KernelIdeal.Run

open Cert.KernelIdeal Cert.KernelIdeal.Gen Cert.KernelIdeal.Around Cert.KernelIdeal.Product Cert.KernelIdeal.Tail
open Idealize.ShloMosaic Idealize.ShloMosaic.TcCoe Idealize.ShloMosaic.StableHlo Idealize.ShloMosaic.ValueIdx
open Idealize.SL Idealize.SL.Sem
open Idealize.ShloMosaic.Pipeline (Dat)

/-- The weights as the region's second operand: transposed, then narrowed. -/
def wt {F : FTy → Type} [FloatOps F] (W : FVec F S128x128 .f32) : FVec F S128x128 .bf16 :=
  truncf .bf16 (transpose S128x128 [1, 0] W Facts₀.transposes_S128x128_S128x128_1_0) Facts₀.bitsLt_bf16_f32

/-- At the ideal values entry (k, o) of that operand is entry (o, k) of the weights. -/
theorem wt_apply (W : FVec Ideal S128x128 .f32) (k o : Fin 128) : wt (F := Ideal) W (ix2 k o) = W (ix2 o k) := by
  unfold wt
  show FloatOps.truncf (F := Ideal) .bf16 Facts₀.bitsLt_bf16_f32 (transpose S128x128 [1, 0] W Facts₀.transposes_S128x128_S128x128_1_0 (ix2 k o)) = _
  rw [Ideal.truncf_def]
  exact transpose_apply [1, 0] W Facts₀.transposes_S128x128_S128x128_1_0 (ix2 k o) (ix2 o k) (fun b => match b with
    | ⟨0, _⟩ => rfl
    | ⟨1, _⟩ => rfl)

variable (m : (ℓ : Loc nD τ sig) → Buf (Elt Ideal) ℓ) (ρ : Dev nD → PrngReg)

/-- What the region finds in its second operand's array: the two host operations before it applied to the weights. -/
theorem V_main_v1 (c : Dev nD) : V m c main_v1 = wt (F := Ideal) (m ((c : Thread nD τ).loc main_arg4)) := by
  show StableHlo.after (List.flatten [main_part0_ops0]) (fun b => m (c, b)) (Proc.devRef .tc main_v1) = _
  simp only [main_part0_ops0, List.flatten_cons, List.flatten_nil, List.append_nil]
  after_results
  rfl

/-- The result buffer after the whole program. -/
theorem out_eq (c : Dev nD) :
    Pipeline.afterTail₀ cfgs (dats m) 0 (V0 m) [main_part0_ops1, main_part1_ops0, main_part2_ops0] c main_v142
      = kernelOut (F := Ideal) (Y (m ((c : Thread nD τ).loc main_arg0)) (wt (F := Ideal) (m ((c : Thread nD τ).loc main_arg4))))
          (m ((c : Thread nD τ).loc main_arg1)) (m ((c : Thread nD τ).loc main_arg2))
          (m ((c : Thread nD τ).loc main_arg3)) (m ((c : Thread nD τ).loc main_arg5)) := by
  rw [tail_out m c, final2 m c, V_main_arg0 m c, V_main_v1 m c]

/-- Every weakly fair execution terminates with the result at `kernelOut` of the product and the arguments, the
    arguments unchanged. -/
theorem run : θ_run defs (onTc (τ := τ) (main (F := Ideal))) ⟨m, fun _ => 0, ρ⟩ (fun r => ∀ c : Dev nD,
      r.2.mem ((c.tc : Thread nD τ).loc main_v142)
        = kernelOut (F := Ideal) (Y (m ((c.tc : Thread nD τ).loc main_arg0)) (wt (F := Ideal) (m ((c.tc : Thread nD τ).loc main_arg4))))
          (m ((c.tc : Thread nD τ).loc main_arg1)) (m ((c.tc : Thread nD τ).loc main_arg2))
          (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v142 (Pipeline.mem_restRefs_of main_v142 (by decide) (by decide))).trans (out_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Run

end
-- ==== Proof.FiniteInputs.lean ====
/-
  From the printed precondition to real numbers. The precondition `finite_inputs` states, for each float array, that
  every element's absolute value is below +∞ (the comparison `|·| < inf` reduced by `and` over all elements, the four results conjoined by `and`). Read at the ideal
  instance, where a float is an extended real, an absolute value `max a (−a)` below `⊤` says that `a` is neither
  `⊤` nor `⊥`: `a` is a real number. So when the predicate is 1, every element of each float array is a real.
-/
import Idealize.ShloMosaic.Lib.ReduceAll
import Idealize.ShloMosaic.Lib.ValueIdx
import proofs.«122976_j31482110280358_2_alg».proof.Pre_finite_inputs

noncomputable section

namespace Cert.FiniteInputs

open Idealize.ShloMosaic Idealize.ShloMosaic.ValueIdx
open Cert.Pre_finite_inputs (S200000x128 S1600000 S128x128 S128 S_)

/-- The scalar shape has one index. -/
instance subsingleton_scalarIdx : Subsingleton S_.Idx := ⟨fun a b => funext fun d => d.elim0⟩

/-- The f32 word `0x7F800000` (sign 0, exponent all ones, fraction 0) encodes +∞. -/
theorem inf_bits : Ideal.ofBits .f32 0x7F800000#32 = (⊤ : EReal) := by
  simp [Ideal.ofBits, Ideal.ieee]

/-- An extended real whose absolute value `max a (−a)` compares below +∞ is a real number: `⊤` and `⊥` both have
    absolute value `⊤`, which is not below itself. -/
theorem real_of_abs_lt_inf (a : EReal)
    (h : Ideal.cmp .olt (max a (-a)) (Ideal.ofBits .f32 0x7F800000#32) = 1#1) : ∃ r : ℝ, a = (r : EReal) := by
  rw [inf_bits] at h
  induction a using EReal.rec with
  | bot => simp [Ideal.cmp] at h
  | coe r => exact ⟨r, rfl⟩
  | top => simp [Ideal.cmp] at h

section
variable [Cert.Pre_finite_inputs.Facts] (x : FVec Ideal S200000x128 .f32) (rows cols : IVec S1600000 32)
  (vals : FVec Ideal S1600000 .f32) (W : FVec Ideal S128x128 .f32) (b : FVec Ideal S128 .f32)

/-- WHEN THE PRECONDITION HOLDS, THE FLOAT INPUTS ARE REAL: every element of the table `x`, of the edge values
    `vals` and of the weight matrix `W` is a real number. The predicate's value is the `and` of four `and`-reductions; each
    one that is 1 gives the comparison `|·| < inf` at every index, and that comparison gives a real. -/
theorem finite_of_pre (h : Cert.Pre_finite_inputs.fn (F := Ideal) x rows cols vals W b = fun _ => 1#1) :
    (∀ i, ∃ r : ℝ, x i = (r : EReal)) ∧ (∀ i, ∃ r : ℝ, vals i = (r : EReal)) ∧ (∀ i, ∃ r : ℝ, W i = (r : EReal)) := by
  have h0 := congrFun h ix0
  dsimp only [Cert.Pre_finite_inputs.fn, Cert.Pre_finite_inputs.fn_part1] at h0
  obtain ⟨h123, _⟩ := IntOp.andi_eq_one.1 h0
  obtain ⟨h12, hW⟩ := IntOp.andi_eq_one.1 h123
  obtain ⟨hx, hv⟩ := IntOp.andi_eq_one.1 h12
  refine ⟨fun i => ?_, fun i => ?_, fun i => ?_⟩
  · exact real_of_abs_lt_inf _ (Host.reduce_andi_all _ _ _ _ _ hx i)
  · exact real_of_abs_lt_inf _ (Host.reduce_andi_all _ _ _ _ _ hv i)
  · exact real_of_abs_lt_inf _ (Host.reduce_andi_all _ _ _ _ _ hW i)

/-- Likewise every element of the bias `b` is a real number. -/
theorem finite_bias_of_pre (h : Cert.Pre_finite_inputs.fn (F := Ideal) x rows cols vals W b = fun _ => 1#1) :
    ∀ i, ∃ r : ℝ, b i = (r : EReal) := by
  have h0 := congrFun h ix0
  dsimp only [Cert.Pre_finite_inputs.fn, Cert.Pre_finite_inputs.fn_part1] at h0
  obtain ⟨_, hb⟩ := IntOp.andi_eq_one.1 h0
  exact fun i => real_of_abs_lt_inf _ (Host.reduce_andi_all _ _ _ _ _ hb i)

end

end Cert.FiniteInputs

end
-- ==== Proof.LibRowScatter.lean ====
/-
  Rows of a two-dimensional table read through an integer index column, and updates added into rows.

  A table `x : [R, C]` and an index array `idx : [n, 1]`.
  * GATHER OF ROWS (the gather operation with offset axis 1, collapsed slice axis 0, start index map `[0]`, index vector
    axis 1, slice sizes `[1, C]`): result element `(e, k)` is `x` at row `idx[e, 0]` — read as a signed integer, negative
    values truncated to 0, then clamped to at most `R − 1` — and column `k` (`gather_rows_apply`).
  * SCATTER-ADD INTO ROWS (the scatter operation with an `add` body, update window axis 1, inserted window axis 0,
    scatter-dims-to-operand-dims `[0]`, index vector axis 1): update element `(e, k)` lands at row `idx[e, 0]` read as a
    signed integer and column `k`, when that row is in `[0, R)`, and is dropped otherwise; so result element `(r, o)` is
    `x (r, o)` plus the sum over the `e` whose index is exactly `r` of the update `(e, o)` (`scatterAdd_rows_apply`).
  Both are generic in the sizes `R`, `C`, `n` and in the index width `w`; the dimension-number records take their
  well-formedness condition as a hypothesis, which is decided on literal sizes.
-/
import Idealize.ShloMosaic.PureOps.Ideal
import Idealize.ShloMosaic.Lib.ValueIdx

noncomputable section

open scoped BigOperators

namespace Cert.RowOps

open Idealize.ShloMosaic Idealize.ShloMosaic.ValueIdx

/-! ## Gather of rows -/

/-- The dimension numbers of a gather of whole rows: operand `[R, C]`, start indices `[n, 1]`, result `[n, C]`; the
    result's axis 1 is the offset axis, the operand's axis 0 is collapsed and is the one the start index names, the
    index vector lies along axis 1 of the start indices, and a slice is one row (`[1, C]`). -/
abbrev rowGather (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, k)`: the table at row `idx[e, 0]`, read signed, truncated at 0 and clamped to
    `R − 1`, and column `k`. -/
theorem gather_rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowGather R C n wf) x idx (ix2 e k)
      = x (ix2 ⟨min (idx (ix2 e 0)).toInt.toNat (R - 1), by omega⟩ k) := by
  unfold Host.gather
  congr 1
  funext a
  refine Fin.ext ?_
  match a with
  | ⟨0, _⟩ =>
    -- the row axis: the clamped start index; no batching coordinate, and no offset coordinate on a collapsed axis
    show (rowGather R C n wf).start (ix2 e k) idx 0 + (rowGather R C n wf).batchCoord (ix2 e k) 0
      + (rowGather R C n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C n wf).startIndexMap from List.mem_singleton.mpr rfl)]
    have hsi : (rowGather R C n wf).siIdx (ix2 e k) ⟨List.idxOf (0 : Fin 2) (rowGather R C n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not named by the start index map, so the start is 0 and the coordinate is the offset `k`
    show (rowGather R C n wf).start (ix2 e k) idx 1 + (rowGather R C n wf).batchCoord (ix2 e k) 1
      + (rowGather R C n wf).offCoord (ix2 e k) 1 = k.val
    rw [GatherDims.batchCoord_eq_zero _ _ _ List.not_mem_nil]
    have hst : (rowGather R C n wf).start (ix2 e k) idx 1 = 0 := by
      unfold GatherDims.start
      rw [dif_neg (show (1 : Fin 2) ∉ (rowGather R C n wf).startIndexMap from
        fun h => absurd (List.mem_singleton.mp h) (show (1 : Fin 2) ≠ 0 from by decide))]
    have hk : (1 : Fin 2) ∈ (rowGather R C n wf).sKept :=
      (GatherDims.mem_sKept _ _).mpr
        ⟨fun h => absurd (List.mem_singleton.mp h) (show (1 : Fin 2) ≠ 0 from by decide), List.not_mem_nil⟩
    rw [hst]
    unfold GatherDims.offCoord
    rw [dif_pos hk]
    simp only [Nat.zero_add, Nat.add_zero]
    rfl

/-! ## Scatter-add into rows -/

/-- The dimension numbers of a scatter of whole-row updates: operand `[R, C]`, scatter indices `[n, 1]`, updates
    `[n, C]`; the updates' axis 1 is the window axis, the operand's axis 0 is the inserted window axis and the one the
    scatter index names, and the index vector lies along axis 1 of the scatter indices. -/
abbrev rowScatter (R C n : Nat) (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

section
variable {R C n w : Nat} (wf : ScatterDims.WF ⟨2, ![R, C]⟩ ⟨2, ![n, 1]⟩ ⟨2, ![n, C]⟩ [1] [0] [0] 1)
  (idx : IVec ⟨2, ![n, 1]⟩ w) (e : Fin n) (k : Fin C)

/-- On the row axis the window of update `(e, k)` starts at `idx[e, 0]` read as a signed integer (not clamped). -/
theorem rowScatter_start0 :
    (rowScatter R C n wf).start (ix2 e k) idx 0 = (idx (ix2 e 0)).toInt := by
  unfold ScatterDims.start
  rw [dif_pos (show (0 : Fin 2) ∈ (rowScatter R C n wf).scatterDimsToOperandDims from List.mem_singleton.mpr rfl)]
  have hsi : (rowScatter R C n wf).siIdx (ix2 e k) ⟨List.idxOf (0 : Fin 2) (rowScatter R C n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the scatter index does not name, the window starts at 0. -/
theorem rowScatter_start1 : (rowScatter R C n wf).start (ix2 e k) idx 1 = 0 := by
  unfold ScatterDims.start
  rw [dif_neg (show (1 : Fin 2) ∉ (rowScatter R C n wf).scatterDimsToOperandDims from
    fun h => absurd (List.mem_singleton.mp h) (show (1 : Fin 2) ≠ 0 from by decide))]

/-- The row axis is an inserted window axis: the window coordinate there is 0. -/
theorem rowScatter_window0 : (rowScatter R C n wf).window (ix2 e k) 0 = 0 := by
  unfold ScatterDims.window
  rw [dif_neg]
  intro h
  simp [ScatterDims.sKept, Shape.kept] at h

/-- On the column axis the window coordinate of update `(e, k)` is `k`. -/
theorem rowScatter_window1 : (rowScatter R C n wf).window (ix2 e k) 1 = k.val := by
  have hk : (1 : Fin 2) ∈ (rowScatter R C n wf).sKept := by
    simp [ScatterDims.sKept, Shape.kept]
  unfold ScatterDims.window
  rw [dif_pos hk]
  rfl

/-- WHERE AN UPDATE LANDS: update `(e, k)` lands at `(r, o)` exactly when `idx[e, 0]`, read signed, is the row `r` and
    `k` is the column `o` (an index outside `[0, R)` is no row, so that update lands nowhere). -/
theorem rowScatter_resultIdx?_eq_some (r : Fin R) (o : Fin C) :
    (rowScatter R C n wf).resultIdx? (ix2 e k) idx = some (ix2 r o)
      ↔ (idx (ix2 e 0)).toInt = (r.val : Int) ∧ k = o := by
  have hs0 := rowScatter_start0 wf idx e k
  have hs1 := rowScatter_start1 wf idx e k
  have hw0 := rowScatter_window0 wf e k
  have hw1 := rowScatter_window1 wf e k
  unfold ScatterDims.resultIdx?
  constructor
  · intro h
    split at h
    · rename_i hall
      have h' := Option.some.inj h
      have h0 : ((rowScatter R C n wf).start (ix2 e k) idx 0
          + ((rowScatter R C n wf).window (ix2 e k) 0 : Nat)).toNat = r.val :=
        congrArg (fun f => (f 0).val) h'
      have h1 : ((rowScatter R C n wf).start (ix2 e k) idx 1
          + ((rowScatter R C n wf).window (ix2 e k) 1 : Nat)).toNat = o.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hr : r.val < R := r.isLt
    have hk : k.val < C := k.isLt
    have hall : ∀ a, 0 ≤ (rowScatter R C n wf).start (ix2 e k) idx a + ((rowScatter R C n wf).window (ix2 e k) a : Nat)
        ∧ (rowScatter R C n wf).start (ix2 e k) idx a + ((rowScatter R C n wf).window (ix2 e k) a : Nat)
          < ((⟨2, ![R, C]⟩ : Shape).size a : Nat) := by
      intro a
      match a with
      | ⟨0, _⟩ =>
        show 0 ≤ (rowScatter R C n wf).start (ix2 e k) idx 0 + ((rowScatter R C n wf).window (ix2 e k) 0 : Nat)
          ∧ (rowScatter R C n wf).start (ix2 e k) idx 0 + ((rowScatter R C n wf).window (ix2 e k) 0 : Nat) < (R : Int)
        rw [hs0, hw0, h0]; omega
      | ⟨1, _⟩ =>
        show 0 ≤ (rowScatter R C n wf).start (ix2 e k) idx 1 + ((rowScatter R C n wf).window (ix2 e k) 1 : Nat)
          ∧ (rowScatter R C n wf).start (ix2 e k) idx 1 + ((rowScatter R C n wf).window (ix2 e k) 1 : Nat) < (C : Int)
        rw [hs1, hw1]; omega
    rw [dif_pos hall]
    congr 1
    funext a
    refine Fin.ext ?_
    match a with
    | ⟨0, _⟩ =>
      show ((rowScatter R C n wf).start (ix2 e k) idx 0
        + ((rowScatter R C n wf).window (ix2 e k) 0 : Nat)).toNat = r.val
      rw [hs0, hw0, h0]; omega
    | ⟨1, _⟩ =>
      show ((rowScatter R C n wf).start (ix2 e k) idx 1
        + ((rowScatter R C n wf).window (ix2 e k) 1 : Nat)).toNat = k.val
      rw [hs1, hw1]; omega

end

/-- THE SCATTER-ADD INTO ROWS READ AT `(r, o)`: the operand's element plus the sum, over the updates `e` whose index
    `idx[e, 0]` read signed is exactly `r`, of the update's element in column `o`. -/
theorem scatterAdd_rows_apply {R C n w : Nat} (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (o : Fin C) :
    Ideal.hostScatterAdd (rowScatter R C n wf) x idx upd (ix2 r o)
      = x (ix2 r o) + ∑ e : Fin n, if (idx (ix2 e 0)).toInt = (r.val : Int) then upd (ix2 e o) else 0 := by
  unfold Ideal.hostScatterAdd
  congr 1
  -- the filtered sum as a sum of `if`s, over the two coordinates of the update index
  rw [Finset.sum_filter, sum_idx2]
  refine Finset.sum_congr rfl fun e _ => ?_
  simp only [rowScatter_resultIdx?_eq_some wf idx e _ r o]
  by_cases hA : (idx (ix2 e 0)).toInt = (r.val : Int)
  · -- the index is the row: of the columns only `o` contributes
    simp only [hA, true_and, if_true]
    rw [Finset.sum_ite_eq' Finset.univ o (fun k => upd (ix2 e k))]
    simp
  · simp [hA]

end Cert.RowOps

end
-- ==== Proof.EdgeDefs.lean ====
/-
  The row of the table an edge's column index names. A negative index is first moved up by the number of rows
  (200000), as indexing from the end; the index is then read as a signed integer, truncated at zero, and clamped to
  the last row: every 32-bit word names one of the 200000 rows.
-/
import Idealize.ShloMosaic.PureOps.Ideal

namespace Cert.Edges

open Idealize.ShloMosaic

/-- A column index made non-negative: below zero it is moved up by the number of rows. -/
def nc (cv : BitVec 32) : BitVec 32 := Scalar.select (IntOp.cmpi .slt cv 0#32) (IntOp.addi cv 200000#32) cv

/-- The row a column index names: read signed, truncated at zero, clamped to the last row. -/
def grow (cv : BitVec 32) : Fin 200000 := ⟨min (nc cv).toInt.toNat (200000 - 1), by omega⟩

end Cert.Edges
-- ==== Proof.KernelRead.lean ====
/-
  The program's result read at an index, at the ideal values. One chunk of edges starting at `off`, read at row r
  and column o, is zero plus the sum over the chunk's 200000 edges e of: the edge's value times entry
  (row named by the edge's column index, o) of the gathered table, when the edge's row index read as a signed
  integer is r, and nothing otherwise. The whole result at (r, o) is the eight chunk values added one after the
  other onto zero, plus entry o of the bias.
-/
import proofs.«122976_j31482110280358_2_alg».proof.Proof.Tail
import proofs.«122976_j31482110280358_2_alg».proof.Proof.LibRowScatter
import proofs.«122976_j31482110280358_2_alg».proof.Proof.EdgeDefs
import Idealize.ShloMosaic.Lib.Pipeline.Value
import Idealize.ShloMosaic.Lib.ValueIdx
import Idealize.ShloMosaic.PureOps.Ideal.Laws

set_option maxRecDepth 16384

noncomputable section

namespace Cert.KernelIdeal.KernelRead

open Cert.KernelIdeal Cert.KernelIdeal.Tail Cert.Edges Cert.RowOps
open Idealize.ShloMosaic Idealize.ShloMosaic.ValueIdx

/-! ## The layout operations of one chunk, read at an index -/

section Layout
variable {α : Type}

/-- A length-200000 vector as a column: entry (e, 0) is entry e. -/
theorem col_apply (x : S200000.Idx → α) (e : Fin 200000) (z : Fin 1) :
    broadcastInDim S200000x1 ![0] Facts₀.bcast_S200000_S200000x1_0 x (ix2 e z) = x (ix1 e) :=
  broadcastInDim_apply _ Facts₀.bcast_S200000_S200000x1_0 x (ix2 e z) (ix1 e) (fun a => match a with
    | ⟨0, _⟩ => by show e.val = if (200000 : Nat) = 1 then 0 else e.val; rw [if_neg (by decide)])

/-- A column repeated along 128 columns: entry (e, o) is entry (e, 0). -/
theorem wide_apply (x : S200000x1.Idx → α) (e : Fin 200000) (o : Fin 128) :
    broadcastInDim S200000x128 ![0, 1] Facts₀.bcast_S200000x1_S200000x128_0_1 x (ix2 e o) = x (ix2 e (0 : Fin 1)) :=
  broadcastInDim_apply _ Facts₀.bcast_S200000x1_S200000x128_0_1 x (ix2 e o) (ix2 e (0 : Fin 1)) (fun a => match a with
    | ⟨0, _⟩ => by show e.val = if (200000 : Nat) = 1 then 0 else e.val; rw [if_neg (by decide)]
    | ⟨1, _⟩ => by show (0 : Nat) = if (1 : Nat) = 1 then 0 else o.val; rw [if_pos rfl])

/-- A scalar repeated along a length-200000 vector. -/
theorem splat1_apply (x : S_.Idx → α) (e : Fin 200000) :
    broadcastInDim S200000 ![] Facts₀.bcast_S_S200000 x (ix1 e) = x (fun a => a.elim0) :=
  broadcastInDim_apply _ Facts₀.bcast_S_S200000 x (ix1 e) (fun a => a.elim0) (fun a => a.elim0)

/-- A scalar repeated over the whole 200000 × 128 array. -/
theorem splat2_apply (x : S_.Idx → α) (i : S200000x128.Idx) :
    broadcastInDim S200000x128 ![] Facts₀.bcast_S_S200000x128 x i = x (fun a => a.elim0) :=
  broadcastInDim_apply _ Facts₀.bcast_S_S200000x128 x i (fun a => a.elim0) (fun a => a.elim0)

/-- The bias as a row repeated along the 200000 rows: entry (r, o) is entry o. -/
theorem bias_apply (b : S128.Idx → α) (r : Fin 200000) (o : Fin 128) :
    broadcastInDim S200000x128 ![0, 1] Facts₀.bcast_S1x128_S200000x128_0_1 (broadcastInDim S1x128 ![1] Facts₀.bcast_S128_S1x128_1 b) (ix2 r o) = b (ix1 o) := by
  rw [broadcastInDim_apply _ Facts₀.bcast_S1x128_S200000x128_0_1 _ (ix2 r o) (ix2 (0 : Fin 1) o) (fun a => match a with
    | ⟨0, _⟩ => by show (0 : Nat) = if (1 : Nat) = 1 then 0 else r.val; rw [if_pos rfl]
    | ⟨1, _⟩ => by show o.val = if (128 : Nat) = 1 then 0 else o.val; rw [if_neg (by decide)])]
  exact broadcastInDim_apply _ Facts₀.bcast_S128_S1x128_1 b (ix2 (0 : Fin 1) o) (ix1 o) (fun a => match a with
    | ⟨0, _⟩ => by show o.val = if (128 : Nat) = 1 then 0 else o.val; rw [if_neg (by decide)])

/-- Edge e of the chunk starting at `off` is edge off + e of the whole list. -/
def shift (off : Nat) (hle : off + 200000 ≤ 1600000) (e : Fin 200000) : Fin 1600000 :=
  ⟨off + e.val, by have := e.isLt; omega⟩

/-- A chunk of a length-1600000 vector: entry e is entry off + e. -/
theorem slice_apply (off : Nat) (hle : off + 200000 ≤ 1600000) (h : S1600000.Slices ![off] S200000) (x : S1600000.Idx → α) (e : Fin 200000) :
    extractStridedSlice S200000 ![off] x h (ix1 e) = x (ix1 (shift off hle e)) :=
  extractStridedSlice_apply ![off] x h (ix1 e) (ix1 (shift off hle e)) (fun a => match a with
    | ⟨0, _⟩ => rfl)

end Layout

/-! ## One chunk at an index -/

theorem chunkAgg_apply (off : Nat) (hle : off + 200000 ≤ 1600000) (h : S1600000.Slices ![off] S200000)
    (y : FVec Ideal S200000x128 .f32) (rows cols : IVec S1600000 32) (vals : FVec Ideal S1600000 .f32) (r : Fin 200000) (o : Fin 128) :
    chunkAgg (F := Ideal) ![off] h y rows cols vals (ix2 r o)
      = (0 : EReal) + ∑ e : Fin 200000, if (rows (ix1 (shift off hle e))).toInt = (r.val : Int)
          then vals (ix1 (shift off hle e)) * y (ix2 (grow (cols (ix1 (shift off hle e)))) o) else 0 := by
  unfold chunkAgg
  have hrec : scatter_S200000x128_S200000x1_S200000x128_1_0_0_1
      = rowScatter 200000 128 200000 Facts₀.scatter_S200000x128_S200000x1_S200000x128_1_0_0_1_wf := rfl
  have hgat : gather_S200000x128_S200000x1_S200000x128_1_0_n_n_0_1_1128
      = rowGather 200000 128 200000 Facts₀.gather_S200000x128_S200000x1_S200000x128_1_0_n_n_0_1_1128_wf := rfl
  rw [hrec, hgat]
  simp only [Host.scatterAdd, Ideal.hostScatterAdd_def]
  rw [scatterAdd_rows_apply, splat2_apply]
  simp only [constant, Ideal.ofBits_def, Ideal.ofBits_zero_f32]
  refine congrArg (fun z : EReal => (0 : EReal) + z) ?_
  refine Finset.sum_congr rfl fun e _ => ?_
  rw [col_apply, slice_apply off hle]
  refine if_congr Iff.rfl ?_ rfl
  simp only [mulf]
  rw [wide_apply, col_apply, slice_apply off hle, gather_rows_apply (by decide)]
  simp only [Ideal.mulf_def]
  refine congrArg (fun z : Fin 200000 => vals (ix1 (shift off hle e)) * y (ix2 z o)) (Fin.ext ?_)
  refine congrArg (fun z : BitVec 32 => min z.toInt.toNat (200000 - 1)) ?_
  rw [col_apply]
  simp only [select, cmpi, addi]
  rw [slice_apply off hle, splat1_apply, splat1_apply]
  rfl

/-! ## The whole result at an index -/

theorem kernelOut_apply (y : FVec Ideal S200000x128 .f32) (rows cols : IVec S1600000 32) (vals : FVec Ideal S1600000 .f32)
    (b : FVec Ideal S128 .f32) (r : Fin 200000) (o : Fin 128) :
    kernelOut (F := Ideal) y rows cols vals b (ix2 r o)
      = (((((((((0 : EReal)
          + chunkAgg (F := Ideal) ![0] Facts₀.slices_S1600000_S200000_0 y rows cols vals (ix2 r o))
          + chunkAgg (F := Ideal) ![200000] Facts₀.slices_S1600000_S200000_200000 y rows cols vals (ix2 r o))
          + chunkAgg (F := Ideal) ![400000] Facts₀.slices_S1600000_S200000_400000 y rows cols vals (ix2 r o))
          + chunkAgg (F := Ideal) ![600000] Facts₀.slices_S1600000_S200000_600000 y rows cols vals (ix2 r o))
          + chunkAgg (F := Ideal) ![800000] Facts₀.slices_S1600000_S200000_800000 y rows cols vals (ix2 r o))
          + chunkAgg (F := Ideal) ![1000000] Facts₀.slices_S1600000_S200000_1000000 y rows cols vals (ix2 r o))
          + chunkAgg (F := Ideal) ![1200000] Facts₀.slices_S1600000_S200000_1200000 y rows cols vals (ix2 r o))
          + chunkAgg (F := Ideal) ![1400000] Facts₀.slices_S1600000_S200000_1400000 y rows cols vals (ix2 r o))
        + b (ix1 o) := by
  unfold kernelOut
  simp only [addf]
  rw [bias_apply, splat2_apply]
  simp only [constant, Ideal.ofBits_def, Ideal.ofBits_zero_f32, Ideal.addf_def]

end Cert.KernelIdeal.KernelRead

end
-- ==== Proof.RefRead.lean ====
/-
  The reference's result read at an index, at the ideal values.

  The reference computes, edge by edge, the product of the edge's value with the table row its column index names,
  adds the products into the rows the edges' row indices name (an index outside the table is dropped), multiplies the
  accumulated table by the transposed weight matrix and adds the bias. Read at row `r` and output column `o` this is

    (∑ k, (0 + ∑ e, [rows e = r] · vals e · x (grow (cols e), k)) · W (o, k)) + b o

  where `grow` is the row a column index names (moved up by the number of rows when negative, then clamped).
-/
import proofs.«122976_j31482110280358_2_alg».proof.Proof.Gen.ReferenceIdeal.Read
import proofs.«122976_j31482110280358_2_alg».proof.Proof.LibRowScatter
import proofs.«122976_j31482110280358_2_alg».proof.Proof.EdgeDefs
import Idealize.ShloMosaic.Lib.Pipeline.Value
import Idealize.ShloMosaic.Lib.ValueIdx
import Idealize.ShloMosaic.PureOps.Ideal.Laws

noncomputable section

open scoped BigOperators

namespace Cert.RefRead

open Cert.ReferenceIdeal Cert.ReferenceIdeal.Gen Cert.ReferenceIdeal.Read Idealize.ShloMosaic
  Idealize.ShloMosaic.ValueIdx Cert.RowOps

/-- The start-index column at edge `e`: the edge's column index, moved up by the number of rows when negative. -/
theorem idxcol_apply (cols : IVec S1600000 32) (e : Fin 1600000) :
    val_main_v6 (F := Ideal) cols (ix2 e 0) = Cert.Edges.nc (cols (ix1 e)) := by
  have hi : idx_main_v6 (ix2 e 0) = ix1 e := funext fun a => Fin.ext (by match a with | ⟨0, _⟩ => rfl)
  rw [val_main_v6_apply, hi, val_main_v5_apply, val_main_v2_apply, val_main_v4_apply, val_main_v1_apply,
    val_main_v3_apply]
  rfl

/-- The gathered table at edge `e`, column `k`: the table at the row the edge's column index names. -/
theorem gathered_apply (x : FVec Ideal S200000x128 .f32) (cols : IVec S1600000 32) (e : Fin 1600000) (k : Fin 128) :
    val_main_v7 (F := Ideal) x cols (ix2 e k) = x (ix2 (Cert.Edges.grow (cols (ix1 e))) k) := by
  unfold val_main_v7
  show Host.gather (rowGather 200000 128 1600000 gather_S200000x128_S1600000x1_S1600000x128_1_0_n_n_0_1_1128_wf) x
    (val_main_v6 (F := Ideal) cols) (ix2 e k) = _
  rw [gather_rows_apply (by omega)]
  refine congrArg x (congrArg (fun q => ix2 q k) (Fin.ext ?_))
  show min (val_main_v6 (F := Ideal) cols (ix2 e 0)).toInt.toNat (200000 - 1)
    = min (Cert.Edges.nc (cols (ix1 e))).toInt.toNat (200000 - 1)
  rw [idxcol_apply]

/-- The update of edge `e` in column `k`: the edge's value times the gathered table element. -/
theorem update_apply (x : FVec Ideal S200000x128 .f32) (cols : IVec S1600000 32) (vals : FVec Ideal S1600000 .f32)
    (e : Fin 1600000) (k : Fin 128) :
    val_main_v9 (F := Ideal) x cols vals (ix2 e k) = vals (ix1 e) * x (ix2 (Cert.Edges.grow (cols (ix1 e))) k) := by
  have hi : idx_main_v0 (idx_main_v8 (ix2 e k)) = ix1 e := funext fun a => Fin.ext (by match a with | ⟨0, _⟩ => rfl)
  rw [val_main_v9_apply, Ideal.mulf_def, val_main_v8_apply, val_main_v0_apply, hi, gathered_apply]

/-- At the ideal values the host's scatter with an `add` body is the exact sum, as functions (no index applied). -/
theorem scatterAdd_ideal {s si su : Shape} {φ : FTy} (d : ScatterDims s si su) {w : Nat} (x : FVec Ideal s φ)
    (idx : IVec si w) (upd : FVec Ideal su φ) :
    Host.scatterAdd (F := Ideal) d x idx upd = Ideal.hostScatterAdd d x idx upd := rfl

/-- The accumulated table at row `r`, column `k`: zero plus the sum of the updates of the edges whose row index, read
    signed, is `r`. -/
theorem scattered_apply (x : FVec Ideal S200000x128 .f32) (rows cols : IVec S1600000 32)
    (vals : FVec Ideal S1600000 .f32) (r : Fin 200000) (k : Fin 128) :
    val_main_v12 (F := Ideal) x rows cols vals (ix2 r k)
      = (0 : EReal) + ∑ e : Fin 1600000, if (rows (ix1 e)).toInt = (r.val : Int)
          then vals (ix1 e) * x (ix2 (Cert.Edges.grow (cols (ix1 e))) k) else 0 := by
  have hrec : scatter_S200000x128_S1600000x1_S1600000x128_1_0_0_1
      = rowScatter 200000 128 1600000 scatter_S200000x128_S1600000x1_S1600000x128_1_0_0_1_wf := rfl
  have hfun : val_main_v12 (F := Ideal) x rows cols vals
      = Ideal.hostScatterAdd (rowScatter 200000 128 1600000 scatter_S200000x128_S1600000x1_S1600000x128_1_0_0_1_wf)
          (val_main_v10 (F := Ideal)) (val_main_v11 (F := Ideal) rows) (val_main_v9 (F := Ideal) x cols vals) := by
    unfold val_main_v12
    rw [hrec]
    exact scatterAdd_ideal _ _ _ _
  have h0 : val_main_v10 (F := Ideal) (ix2 r k) = (0 : EReal) := by
    rw [val_main_v10_apply, val_main_cst_apply]
    exact Ideal.ofBits_zero_f32
  rw [hfun, scatterAdd_rows_apply, h0]
  refine congrArg (fun s : EReal => (0 : EReal) + s) (Finset.sum_congr rfl fun e _ => ?_)
  have hi : idx_main_v11 (ix2 e 0) = ix1 e := funext fun a => Fin.ext (by match a with | ⟨0, _⟩ => rfl)
  rw [val_main_v11_apply, hi, update_apply]

/-- THE REFERENCE'S RESULT AT `(r, o)`: the accumulated row `r` dotted with row `o` of the weight matrix, plus the
    bias at `o`. -/
theorem ref_apply (x : FVec Ideal S200000x128 .f32) (rows cols : IVec S1600000 32) (vals : FVec Ideal S1600000 .f32)
    (W : FVec Ideal S128x128 .f32) (b : FVec Ideal S128 .f32) (r : Fin 200000) (o : Fin 128) :
    val_main_v17 (F := Ideal) x rows cols vals W b (ix2 r o)
      = (∑ k : Fin 128, ((0 : EReal) + ∑ e : Fin 1600000, if (rows (ix1 e)).toInt = (r.val : Int)
            then vals (ix1 e) * x (ix2 (Cert.Edges.grow (cols (ix1 e))) k) else 0) * W (ix2 o k)) + b (ix1 o) := by
  have hb : idx_main_v15 (idx_main_v16 (ix2 r o)) = ix1 o :=
    funext fun a => Fin.ext (by match a with | ⟨0, _⟩ => rfl)
  rw [val_main_v17_apply, Ideal.addf_def, val_main_v14_apply, val_main_v16_apply, val_main_v15_apply, hb]
  refine congrArg (fun s : EReal => s + b (ix1 o)) (Finset.sum_congr rfl fun k _ => ?_)
  have hl : lidx_main_v14 (ix2 r o) k = ix2 r k :=
    funext fun a => Fin.ext (by match a with | ⟨0, _⟩ => rfl | ⟨1, _⟩ => rfl)
  have hr : ridx_main_v14 (ix2 r o) k = ix2 k o :=
    funext fun a => Fin.ext (by match a with | ⟨0, _⟩ => rfl | ⟨1, _⟩ => rfl)
  have ht : idx_main_v13 (ix2 k o) = ix2 o k :=
    funext fun a => Fin.ext (by match a with | ⟨0, _⟩ => rfl | ⟨1, _⟩ => rfl)
  rw [hl, hr, scattered_apply, val_main_v13_apply, ht]

end Cert.RefRead

end
-- ==== Proof.SpmmLaw.lean ====
/-
  Two laws of finite sums used to compare a sparse-matrix product computed in eight chunks of edges, with the dense
  factor applied last, against the same product with the dense factor applied first.

  * `edge_sum_mul_distrib`: for real data read in the extended reals, a sum over edges of `v e · (X (g e) ⬝ Wm)`,
    restricted to the edges satisfying a predicate, is the dot product with `Wm` of the restricted edge sums of
    `v e · X (g e)` — the distributive law, exact because every term is a real number.
  * `sum_chunks8`: a sum over 1 600 000 indices is the sum of the eight sums over its consecutive blocks of 200 000.
-/
import Mathlib.Data.EReal.Basic
import Mathlib.Data.EReal.Operations
import Mathlib.Algebra.BigOperators.Fin
import Mathlib.Data.Fintype.BigOperators

open scoped BigOperators

namespace Cert.SpmmLaw

/-! ## Real sums read in the extended reals -/

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with `if`. -/
theorem coe_ite (p : Prop) [Decidable p] (a b : ℝ) :
    ((if p then a else b : ℝ) : EReal) = if p then (a : EReal) else (b : EReal) := by
  split <;> rfl

/-- THE DISTRIBUTIVE LAW OVER THE EDGES: summing `v e · ∑ k, X (g e) k · Wm k` over the edges that satisfy `p` is
    summing over `k` the restricted edge sums `∑ e, v e · X (g e) k` times `Wm k`. All data are real, so both sides
    are the coercion of one real number. -/
theorem edge_sum_mul_distrib {E V K : Type*} [Fintype E] [Fintype K] (X : V → K → ℝ) (Wm : K → ℝ) (v : E → ℝ)
    (g : E → V) (p : E → Prop) [DecidablePred p] :
    (∑ e : E, if p e then (v e : EReal) * ∑ k : K, (X (g e) k : EReal) * (Wm k : EReal) else 0)
      = ∑ k : K, (∑ e : E, if p e then (v e : EReal) * (X (g e) k : EReal) else 0) * (Wm k : EReal) := by
  -- the identity in the reals: distribute, exchange the two sums, and reassociate the products
  have hreal : (∑ e : E, if p e then v e * ∑ k : K, X (g e) k * Wm k else 0)
      = ∑ k : K, (∑ e : E, if p e then v e * X (g e) k else 0) * Wm k := by
    simp only [Finset.sum_mul]
    rw [Finset.sum_comm]
    refine Finset.sum_congr rfl fun e _ => ?_
    by_cases h : p e
    · simp only [h, if_true, Finset.mul_sum, mul_assoc]
    · simp [h]
  -- read in the extended reals, with the coercion pushed to the data
  have h := congrArg (fun r : ℝ => (r : EReal)) hreal
  simp only [coe_finset_sum, coe_ite, EReal.coe_mul, EReal.coe_zero] at h
  exact h

/-! ## A sum over 1 600 000 indices in eight blocks -/

/-- Index `e` of block `c`: the blocks are consecutive, of 200 000 indices each. -/
def chunk (c : Fin 8) (e : Fin 200000) : Fin 1600000 :=
  ⟨c.val * 200000 + e.val, by have := c.isLt; have := e.isLt; omega⟩

/-- The indices are the pairs (block, index in the block): quotient and remainder by 200 000. -/
def chunkEquiv : Fin 8 × Fin 200000 ≃ Fin 1600000 where
  toFun q := chunk q.1 q.2
  invFun i := (⟨i.val / 200000, by have := i.isLt; omega⟩, ⟨i.val % 200000, by omega⟩)
  left_inv q := by
    obtain ⟨c, e⟩ := q
    have hc := c.isLt
    have he := e.isLt
    refine Prod.ext (Fin.ext ?_) (Fin.ext ?_)
    · show (c.val * 200000 + e.val) / 200000 = c.val
      omega
    · show (c.val * 200000 + e.val) % 200000 = e.val
      omega
  right_inv i := by
    refine Fin.ext ?_
    show i.val / 200000 * 200000 + i.val % 200000 = i.val
    omega

/-- THE SUM IN EIGHT BLOCKS: a sum over all 1 600 000 indices is the sum of the eight block sums, in order. -/
theorem sum_chunks8 {M : Type*} [AddCommMonoid M] (f : Fin 1600000 → M) :
    ∑ e : Fin 1600000, f e
      = (((((((∑ e : Fin 200000, f (chunk 0 e)) + ∑ e : Fin 200000, f (chunk 1 e)) + ∑ e : Fin 200000, f (chunk 2 e))
        + ∑ e : Fin 200000, f (chunk 3 e)) + ∑ e : Fin 200000, f (chunk 4 e)) + ∑ e : Fin 200000, f (chunk 5 e))
        + ∑ e : Fin 200000, f (chunk 6 e)) + ∑ e : Fin 200000, f (chunk 7 e) := by
  rw [← Fintype.sum_equiv chunkEquiv (fun q => f (chunk q.1 q.2)) f (fun _ => rfl),
    Fintype.sum_prod_type, Fin.sum_univ_eight]

end Cert.SpmmLaw
-- ==== Proof.Bridge.lean ====
/-
  The two results are one function of the arguments. At row r and column o the kernel program's result is the sum,
  over the edges e whose row index is r, of the edge's value times entry (row named by the edge's column index, o)
  of the product of the table by the transposed weights — the eight consecutive chunks of edges together are all
  the edges — plus the bias. The reference's is the sum over k of (the sum over those edges of the edge's value times
  entry (that row, k) of the table) times entry (o, k) of the weights, plus the bias. Every table entry, edge value
  and weight being a real number, the product distributes over the finite sums and the two orders of summation
  agree.
-/
import proofs.«122976_j31482110280358_2_alg».proof.Proof.KernelRun
import proofs.«122976_j31482110280358_2_alg».proof.Proof.KernelRead
import proofs.«122976_j31482110280358_2_alg».proof.Proof.RefRead
import proofs.«122976_j31482110280358_2_alg».proof.Proof.SpmmLaw

set_option maxRecDepth 16384

noncomputable section

namespace Cert.Bridge

open Cert.KernelIdeal Cert.KernelIdeal.Product Cert.KernelIdeal.Tail Cert.KernelIdeal.Run Cert.KernelIdeal.KernelRead Cert.Edges
open Idealize.ShloMosaic Idealize.ShloMosaic.ValueIdx

/-- With every entry of the table, the edge values and the weights a real number, the kernel program's result is
    the reference's, index by index. -/
theorem result_eq (x : FVec Ideal S200000x128 .f32) (rows cols : IVec S1600000 32) (vals : FVec Ideal S1600000 .f32)
    (W : FVec Ideal S128x128 .f32) (b : FVec Ideal S128 .f32)
    (hx : ∀ i, ∃ r : ℝ, x i = (r : EReal)) (hv : ∀ i, ∃ r : ℝ, vals i = (r : EReal)) (hW : ∀ i, ∃ r : ℝ, W i = (r : EReal)) :
    kernelOut (F := Ideal) (Y x (wt (F := Ideal) W)) rows cols vals b
      = Cert.ReferenceIdeal.Read.val_main_v17 (F := Ideal) x rows cols vals W b := by
  funext i
  obtain ⟨r, o, rfl⟩ : ∃ (r : Fin 200000) (o : Fin 128), i = ix2 r o := ⟨i 0, i 1, eq_ix2 i⟩
  rw [kernelOut_apply, Cert.RefRead.ref_apply]
  refine congrArg (fun z : EReal => z + b (ix1 o)) ?_
  rw [chunkAgg_apply 0 (by decide), chunkAgg_apply 200000 (by decide), chunkAgg_apply 400000 (by decide), chunkAgg_apply 600000 (by decide), chunkAgg_apply 800000 (by decide), chunkAgg_apply 1000000 (by decide), chunkAgg_apply 1200000 (by decide), chunkAgg_apply 1400000 (by decide)]
  simp only [zero_add]
  choose xr hxr using hx
  choose vr hvr using hv
  choose wr hwr using hW
  have key := Cert.SpmmLaw.sum_chunks8 (fun e : Fin 1600000 =>
    if (rows (ix1 e)).toInt = (r.val : Int) then vals (ix1 e) * Y x (wt (F := Ideal) W) (ix2 (grow (cols (ix1 e))) o) else (0 : EReal))
  refine (Eq.trans (b := ∑ e : Fin 1600000,
    if (rows (ix1 e)).toInt = (r.val : Int) then vals (ix1 e) * Y x (wt (F := Ideal) W) (ix2 (grow (cols (ix1 e))) o) else (0 : EReal)) ?_ ?_)
  · exact key.symm
  · simp only [Y_ix2, wt_apply, hxr, hvr, hwr]
    exact Cert.SpmmLaw.edge_sum_mul_distrib (fun v k => xr (ix2 v k)) (fun k => wr (ix2 o k)) (fun e => vr (ix1 e))
      (fun e => grow (cols (ix1 e))) (fun e => (rows (ix1 e)).toInt = (r.val : Int))

end Cert.Bridge

end
-- ==== Proof.lean ====
/-
  The claims. The kernel program multiplies the table by the transposed weights first (twenty blocks of rows on the
  matrix unit) and then, chunk of edges by chunk of edges, gathers rows of the product, scales them by the edge
  values and scatter-adds them at the edges' row indices, adding the bias last. The reference gathers rows of the
  table itself, scales and scatter-adds all the edges at once, multiplies the aggregate by the transposed weights
  and adds the bias. Both programs run to the end and leave their arguments as launched. On the extended reals,
  with every float input a real number, the two results are equal entry by entry: gathering and scatter-adding are
  the same index maps on both sides (a column index is clamped into the table, a row index outside the table drops
  its edge), and multiplication distributes over the finite sums. The idealization rewrote nothing, so there is
  nothing for it to preserve.
-/
import proofs.«122976_j31482110280358_2_alg».proof.Defs
import proofs.«122976_j31482110280358_2_alg».proof.Proof.Gen.Kernel
import proofs.«122976_j31482110280358_2_alg».proof.Proof.Gen.KernelIdeal
import proofs.«122976_j31482110280358_2_alg».proof.Proof.Gen.ReferenceIdeal
import proofs.«122976_j31482110280358_2_alg».proof.Proof.Gen.ReferenceIdeal.Run
import proofs.«122976_j31482110280358_2_alg».proof.Proof.Gen.ReferenceIdeal.Read
import proofs.«122976_j31482110280358_2_alg».proof.Proof.Gen.Pre_finite_inputs
import proofs.«122976_j31482110280358_2_alg».proof.Proof.AroundK
import proofs.«122976_j31482110280358_2_alg».proof.Proof.AroundKI
import proofs.«122976_j31482110280358_2_alg».proof.Proof.KernelRun
import proofs.«122976_j31482110280358_2_alg».proof.Proof.FiniteInputs
import proofs.«122976_j31482110280358_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Around.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Around.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, all float inputs real numbers, the two idealized programs end with
    equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2.1,
    (hagree c).2.2.2.2.1, (hagree c).2.2.2.2.2]
  obtain ⟨hx, hv, hW⟩ := Cert.FiniteInputs.finite_of_pre _ _ _ _ _ _ (hpre c)
  exact (Cert.Bridge.result_eq _ _ _ _ _ _ hx hv hW).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
